-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S256x1024 : Shape := ⟨2, ![256, 1024]⟩
abbrev S256x3072 : Shape := ⟨2, ![256, 3072]⟩

abbrev nBuf : Space → Nat
  | .hbm => 20
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x3072, .f32⟩
  | .hbm, ⟨13, _⟩ => ⟨S1024x3072, .bf16⟩
  | .hbm, ⟨14, _⟩ => ⟨S1024x3072, .f32⟩
  | .hbm, ⟨15, _⟩ => ⟨S1024x3072, .bf16⟩
  | .hbm, ⟨16, _⟩ => ⟨S3072, .f32⟩
  | .hbm, ⟨17, _⟩ => ⟨S1x3072, .f32⟩
  | .hbm, ⟨18, _⟩ => ⟨S4096x1024, .f32⟩
  | .hbm, ⟨19, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x3072, .bf16⟩
  | .local _ .vmem, ⟨7, _⟩ => ⟨S1024x3072, .bf16⟩
  | .local _ .vmem, ⟨8, _⟩ => ⟨S1x3072, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.KernelFrame.lean ====
/-
  One step of an LSTM cell whose "input cell" is the forget gate again: with x, h₀, c₀ the step's input, hidden
  state and cell state (4096 rows of 1024), and W = [w_f | w_i | w_o], U = [u_f | u_i | u_o], b = [b_f | b_i | b_o]
  the three gates' weights side by side (1024 × 3072, 1024 × 3072, 3072),

      pre = x · W + h₀ · U + b,   f = σ(pre[:, 0:1024]),   i = σ(pre[:, 1024:2048]),   o = σ(pre[:, 2048:3072]),
      c' = f ∘ c₀ + f ∘ i,        h' = o ∘ tanh c'.

  The program first lays W, U and b out (three concatenations, two changes of format, one reshape), then walks the
  4096 rows in 16 blocks of 256: at block t it reads rows [256 t, 256 t + 256) of x, h₀, c₀, the whole of W, U, b, and
  writes the same rows of h' and c'.

  This module proves that the program runs to the end, faults nowhere, and leaves its twelve argument arrays as it
  found them, for any reading of the float operations; and it names what every array of the block walk holds when the
  walk ends. The argument has four parts.
  * What the arrays hold when the block walk starts: the arguments are as launched (no layout operation writes one),
    W, U, b are the layout operations' results.
  * One block: from the six blocks read, the two buffers written hold the block's h' and c' — two pure functions of
    the blocks read; the buffers read are left as found. (The body also reads the two buffers it is about to
    overwrite; what it reads there is never used.)
  * Every block read is found in place at every step, whether it was moved there at this step (x, h₀, c₀: a new
    block each step) or at the first step only (W, U, b: the same block throughout).
  * The walk: the library's theorem on a sequence of such steps, and from its conclusion the twelve arguments
    unchanged — three of them read by the walk, nine not touched by it.
-/
import proofs.«110996_j43894565765582_2_alg».proof.Proof.Gen.Kernel.Launch
import proofs.«110996_j43894565765582_2_alg».proof.Proof.Gen.Kernel.Skeleton
import proofs.«110996_j43894565765582_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the block walk starts -/

/-- What core `c`'s arrays hold when the block walk starts: the launch contents carried through the six layout
    operations (W, U and b laid out; nothing else written). -/
abbrev V (c : Dev nD) (b : Ref sig .tc) : Buf (Elt F) ((c : Thread nD τ).loc b) := StableHlo.after hostOps0 (fun b => m (c, b)) b

/-- No layout operation allocates anything. -/
theorem hostOps0_fresh : (hostOps0 : List (HloOp τ sig (Elt F))).Forall fun op => op.fresh = ∅ := by
  simp only [List.Forall]; repeat' constructor

/-- The program is its layout operations followed by the block walk. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The layout operations write six arrays — the two concatenated weight matrices, their two reformatted copies, the
    concatenated bias and its reshaped copy — and an array that is none of the six is, when the walk starts, as
    launched. -/
theorem V_of_not_written (c : Dev nD) (b : Ref sig .tc) (h0 : b ≠ main_v0) (h1 : b ≠ main_v1) (h2 : b ≠ main_v2)
    (h3 : b ≠ main_v3) (h4 : b ≠ main_v4) (h5 : b ≠ main_v5) : V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem V_main_arg0 (c : Dev nD) : V m c main_arg0 = m ((c : Thread nD τ).loc main_arg0) :=
  V_of_not_written m c main_arg0 (by decide) (by decide) (by decide) (by decide) (by decide) (by decide)
theorem V_main_arg1 (c : Dev nD) : V m c main_arg1 = m ((c : Thread nD τ).loc main_arg1) :=
  V_of_not_written m c main_arg1 (by decide) (by decide) (by decide) (by decide) (by decide) (by decide)
theorem V_main_arg2 (c : Dev nD) : V m c main_arg2 = m ((c : Thread nD τ).loc main_arg2) :=
  V_of_not_written m c main_arg2 (by decide) (by decide) (by decide) (by decide) (by decide) (by decide)
theorem V_main_arg3 (c : Dev nD) : V m c main_arg3 = m ((c : Thread nD τ).loc main_arg3) :=
  V_of_not_written m c main_arg3 (by decide) (by decide) (by decide) (by decide) (by decide) (by decide)
theorem V_main_arg4 (c : Dev nD) : V m c main_arg4 = m ((c : Thread nD τ).loc main_arg4) :=
  V_of_not_written m c main_arg4 (by decide) (by decide) (by decide) (by decide) (by decide) (by decide)
theorem V_main_arg5 (c : Dev nD) : V m c main_arg5 = m ((c : Thread nD τ).loc main_arg5) :=
  V_of_not_written m c main_arg5 (by decide) (by decide) (by decide) (by decide) (by decide) (by decide)
theorem V_main_arg6 (c : Dev nD) : V m c main_arg6 = m ((c : Thread nD τ).loc main_arg6) :=
  V_of_not_written m c main_arg6 (by decide) (by decide) (by decide) (by decide) (by decide) (by decide)
theorem V_main_arg7 (c : Dev nD) : V m c main_arg7 = m ((c : Thread nD τ).loc main_arg7) :=
  V_of_not_written m c main_arg7 (by decide) (by decide) (by decide) (by decide) (by decide) (by decide)
theorem V_main_arg8 (c : Dev nD) : V m c main_arg8 = m ((c : Thread nD τ).loc main_arg8) :=
  V_of_not_written m c main_arg8 (by decide) (by decide) (by decide) (by decide) (by decide) (by decide)
theorem V_main_arg9 (c : Dev nD) : V m c main_arg9 = m ((c : Thread nD τ).loc main_arg9) :=
  V_of_not_written m c main_arg9 (by decide) (by decide) (by decide) (by decide) (by decide) (by decide)
theorem V_main_arg10 (c : Dev nD) : V m c main_arg10 = m ((c : Thread nD τ).loc main_arg10) :=
  V_of_not_written m c main_arg10 (by decide) (by decide) (by decide) (by decide) (by decide) (by decide)
theorem V_main_arg11 (c : Dev nD) : V m c main_arg11 = m ((c : Thread nD τ).loc main_arg11) :=
  V_of_not_written m c main_arg11 (by decide) (by decide) (by decide) (by decide) (by decide) (by decide)

/-! ## The blocks -/

/-- Block `t` of the array behind window `w`, as the walk finds the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/- Each of the six arrays read is found, at every step, with its current block in the buffer the body reads: moved
   there at this step, or — the block index not having changed since — still there from an earlier one. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## One block -/

/-- The whole of a 256 × 1024 buffer, of a 1024 × 3072 one, of a 1 × 3072 one: what every access of the body spans. -/
abbrev rAct : Rect S256x1024 := Rect.unit (s := S256x1024) ![0, 0] S256x1024.size inb_S256x1024_S256x1024_0_0
abbrev rWgt : Rect S1024x3072 := Rect.unit (s := S1024x3072) ![0, 0] S1024x3072.size inb_S1024x3072_S1024x3072_0_0
abbrev rBias : Rect S1x3072 := Rect.unit (s := S1x3072) ![0, 0] S1x3072.size inb_S1x3072_S1x3072_0_0

theorem zero2 : (![0, 0] : Fin 2 → Nat) = fun _ => 0 := by
  funext a; fin_cases a <;> rfl

/-- The new hidden state's block, from the six blocks read: what the one store into its buffer leaves. -/
def hBlock (x h cc : Vec F S256x1024 .f32) (wW wU : Vec F S1024x3072 .bf16) (bb : Vec F S1x3072 .f32) : Vec F S256x1024 .f32 :=
  View.canon [⟨rAct, k0_pay3 (View.ld x rAct) (View.ld h rAct) (View.ld cc rAct) (View.ld wW rWgt) (View.ld wU rWgt) (View.ld bb rBias)⟩]

/-- The new cell state's block, likewise. -/
def cBlock (x h cc : Vec F S256x1024 .f32) (wW wU : Vec F S1024x3072 .bf16) (bb : Vec F S1x3072 .f32) : Vec F S256x1024 .f32 :=
  View.canon [⟨rAct, k0_pay2 (View.ld x rAct) (View.ld h rAct) (View.ld cc rAct) (View.ld wW rWgt) (View.ld wU rWgt) (View.ld bb rBias)⟩]

/-- Every access spans its whole buffer, so the two blocks are the body's two results of the blocks read. -/
theorem hBlock_eq (x h cc : Vec F S256x1024 .f32) (wW wU : Vec F S1024x3072 .bf16) (bb : Vec F S1x3072 .f32) :
    hBlock x h cc wW wU bb = k0_pay3 x h cc wW wU bb := by
  unfold hBlock
  rw [View.canon_unit_zero zero2]
  simp only [View.ld_unit_zero (S := S256x1024) zero2, View.ld_unit_zero (S := S1024x3072) zero2, View.ld_unit_zero (S := S1x3072) zero2]

theorem cBlock_eq (x h cc : Vec F S256x1024 .f32) (wW wU : Vec F S1024x3072 .bf16) (bb : Vec F S1x3072 .f32) :
    cBlock x h cc wW wU bb = k0_pay2 x h cc wW wU bb := by
  unfold cBlock
  rw [View.canon_unit_zero zero2]
  simp only [View.ld_unit_zero (S := S256x1024) zero2, View.ld_unit_zero (S := S1024x3072) zero2, View.ld_unit_zero (S := S1x3072) zero2]

/-- The one store covers its buffer. -/
theorem cover_act (p0 : Vec F S256x1024 .f32) (y : S256x1024.Idx) :
    ∃ pc ∈ ([⟨rAct, p0⟩] : List (View.Piece (Elt F) S256x1024 .f32)), y ∈ pc.1.set :=
  ⟨_, List.mem_singleton_self _, View.mem_set_unit_zero zero2 inb_S256x1024_S256x1024_0_0 y⟩

set_option maxHeartbeats 1000000 in
/-- The body on eight whole buffers — six at the contents read, two at anything — ends with the six as they were and
    the two at the new hidden state's and the new cell state's block. -/
theorem sound_kernel (c : Dev nD) (E : Set ℕ) (i : grid0.Coords)
    (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S1024x3072 .bf16) (h4 : a4.IsWhole)
    (a5 : Memref sig .tc .vmem S1024x3072 .bf16) (h5 : a5.IsWhole) (a6 : Memref sig .tc .vmem S1x3072 .f32) (h6 : a6.IsWhole)
    (a7 : Memref sig .tc .vmem S256x1024 .f32) (h7 : a7.IsWhole) (a8 : Memref sig .tc .vmem S256x1024 .f32) (h8 : a8.IsWhole)
    (x h cc : Vec F S256x1024 .f32) (wW wU : Vec F S1024x3072 .bf16) (bb : Vec F S1x3072 .f32) (K : PUnit → sProp 𝕄) :
    iprop(owns (c : Thread nD τ) a1 fullShare x ∗ owns (c : Thread nD τ) a2 fullShare h ∗ owns (c : Thread nD τ) a3 fullShare cc
        ∗ owns (c : Thread nD τ) a4 fullShare wW ∗ owns (c : Thread nD τ) a5 fullShare wU ∗ owns (c : Thread nD τ) a6 fullShare bb
        ∗ (∃ d, owns (c : Thread nD τ) a7 fullShare d) ∗ (∃ d, owns (c : Thread nD τ) a8 fullShare d)
        ∗ (iprop(owns (c : Thread nD τ) a1 fullShare x ∗ owns (c : Thread nD τ) a2 fullShare h ∗ owns (c : Thread nD τ) a3 fullShare cc
            ∗ owns (c : Thread nD τ) a4 fullShare wW ∗ owns (c : Thread nD τ) a5 fullShare wU ∗ owns (c : Thread nD τ) a6 fullShare bb
            ∗ owns (c : Thread nD τ) a7 fullShare (hBlock x h cc wW wU bb) ∗ owns (c : Thread nD τ) a8 fullShare (cBlock x h cc wW wU bb)) -∗ K ⟨⟩))
      ⊢ wp frame (wpE (defs₀ (F := F)) Variants.none c none) E (cc0__lstm_kernel i a1 h1 a2 h2 a3 h3 a4 h4 a5 h5 a6 h6 a7 h7 a8 h8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_act _)
  iexists _; isplitr
  swap; · iexact H8
  ipureintro
  exact View.read_writes_eq_canon _ _ _ (cover_act _)

/-! ## The walk's proof data -/

/-- On core `c`: the arrays as the walk finds them; after step `t` each buffer read holds its block still, and the two
    written hold the new hidden state's and the new cell state's block of the six blocks read; the rest of the core
    is untouched, nothing is owed, every share is whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hBlock (iblk m c 0 t) (iblk m c 1 t) (iblk m c 2 t) (iblk m c 3 t) (iblk m c 4 t) (iblk m c 5 t)
    | ⟨7, _⟩ => cBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = hBlock (iblk m c 0 t) (iblk m c 1 t) (iblk m c 2 t) (iblk m c 3 t) (iblk m c 4 t) (iblk m c 5 t) := by dsimp only [dats]
theorem after_7 (c : Dev nD) (t : Fin cfg0.N) : (dats m 0 c).after 7 t
    = cBlock (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d
theorem before_4 (c : Dev nD) (t : Fin cfg0.N) (d) : (dats m 0 c).before 4 t d = iblk m c 4 t :=
  before_in4_of m (dats m 0 c) (A_eq m c 4) (after_4 m c) t d
theorem before_5 (c : Dev nD) (t : Fin cfg0.N) (d) : (dats m 0 c).before 5 t d = iblk m c 5 t :=
  before_in5_of m (dats m 0 c) (A_eq m c 5) (after_5 m c) t d

/-! ## The body at a step -/

/-- What the body is handed at step `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any step: the six buffers read hold their blocks, so the body's triple applies; the rest of the core
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The walk and the frame -/

set_option backward.isDefEq.respectTransparency.types false in
/-- From any memory with every counter at zero, every weakly fair execution of the program ends, without a fault,
    with each array of the walk at what the proof data says of it and every other array as the walk found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From the walk's conclusion, the twelve arguments unchanged: x, h₀, c₀ are arrays the walk only reads, the nine
    weights and biases arrays it does not touch; and the layout operations wrote none of the twelve. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-- The program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Frame

end
-- ==== Proof.KernelIdealFrame.lean ====
/-
  One step of an LSTM cell whose "input cell" is the forget gate again: with x, h₀, c₀ the step's input, hidden
  state and cell state (4096 rows of 1024), and W = [w_f | w_i | w_o], U = [u_f | u_i | u_o], b = [b_f | b_i | b_o]
  the three gates' weights side by side (1024 × 3072, 1024 × 3072, 3072),

      pre = x · W + h₀ · U + b,   f = σ(pre[:, 0:1024]),   i = σ(pre[:, 1024:2048]),   o = σ(pre[:, 2048:3072]),
      c' = f ∘ c₀ + f ∘ i,        h' = o ∘ tanh c'.

  The program first lays W, U and b out (three concatenations, two changes of format, one reshape), then walks the
  4096 rows in 16 blocks of 256: at block t it reads rows [256 t, 256 t + 256) of x, h₀, c₀, the whole of W, U, b, and
  writes the same rows of h' and c'.

  This module proves that the program runs to the end, faults nowhere, and leaves its twelve argument arrays as it
  found them, for any reading of the float operations; and it names what every array of the block walk holds when the
  walk ends. The argument has four parts.
  * What the arrays hold when the block walk starts: the arguments are as launched (no layout operation writes one),
    W, U, b are the layout operations' results.
  * One block: from the six blocks read, the two buffers written hold the block's h' and c' — two pure functions of
    the blocks read; the buffers read are left as found. (The body also reads the two buffers it is about to
    overwrite; what it reads there is never used.)
  * Every block read is found in place at every step, whether it was moved there at this step (x, h₀, c₀: a new
    block each step) or at the first step only (W, U, b: the same block throughout).
  * The walk: the library's theorem on a sequence of such steps, and from its conclusion the twelve arguments
    unchanged — three of them read by the walk, nine not touched by it.
-/
import proofs.«110996_j43894565765582_2_alg».proof.Proof.Gen.KernelIdeal.Launch
import proofs.«110996_j43894565765582_2_alg».proof.Proof.Gen.KernelIdeal.Skeleton
import proofs.«110996_j43894565765582_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the block walk starts -/

/-- What core `c`'s arrays hold when the block walk starts: the launch contents carried through the six layout
    operations (W, U and b laid out; nothing else written). -/
abbrev V (c : Dev nD) (b : Ref sig .tc) : Buf (Elt F) ((c : Thread nD τ).loc b) := StableHlo.after hostOps0 (fun b => m (c, b)) b

/-- No layout operation allocates anything. -/
theorem hostOps0_fresh : (hostOps0 : List (HloOp τ sig (Elt F))).Forall fun op => op.fresh = ∅ := by
  simp only [List.Forall]; repeat' constructor

/-- The program is its layout operations followed by the block walk. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The layout operations write six arrays — the two concatenated weight matrices, their two reformatted copies, the
    concatenated bias and its reshaped copy — and an array that is none of the six is, when the walk starts, as
    launched. -/
theorem V_of_not_written (c : Dev nD) (b : Ref sig .tc) (h0 : b ≠ main_v0) (h1 : b ≠ main_v1) (h2 : b ≠ main_v2)
    (h3 : b ≠ main_v3) (h4 : b ≠ main_v4) (h5 : b ≠ main_v5) : V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem V_main_arg0 (c : Dev nD) : V m c main_arg0 = m ((c : Thread nD τ).loc main_arg0) :=
  V_of_not_written m c main_arg0 (by decide) (by decide) (by decide) (by decide) (by decide) (by decide)
theorem V_main_arg1 (c : Dev nD) : V m c main_arg1 = m ((c : Thread nD τ).loc main_arg1) :=
  V_of_not_written m c main_arg1 (by decide) (by decide) (by decide) (by decide) (by decide) (by decide)
theorem V_main_arg2 (c : Dev nD) : V m c main_arg2 = m ((c : Thread nD τ).loc main_arg2) :=
  V_of_not_written m c main_arg2 (by decide) (by decide) (by decide) (by decide) (by decide) (by decide)
theorem V_main_arg3 (c : Dev nD) : V m c main_arg3 = m ((c : Thread nD τ).loc main_arg3) :=
  V_of_not_written m c main_arg3 (by decide) (by decide) (by decide) (by decide) (by decide) (by decide)
theorem V_main_arg4 (c : Dev nD) : V m c main_arg4 = m ((c : Thread nD τ).loc main_arg4) :=
  V_of_not_written m c main_arg4 (by decide) (by decide) (by decide) (by decide) (by decide) (by decide)
theorem V_main_arg5 (c : Dev nD) : V m c main_arg5 = m ((c : Thread nD τ).loc main_arg5) :=
  V_of_not_written m c main_arg5 (by decide) (by decide) (by decide) (by decide) (by decide) (by decide)
theorem V_main_arg6 (c : Dev nD) : V m c main_arg6 = m ((c : Thread nD τ).loc main_arg6) :=
  V_of_not_written m c main_arg6 (by decide) (by decide) (by decide) (by decide) (by decide) (by decide)
theorem V_main_arg7 (c : Dev nD) : V m c main_arg7 = m ((c : Thread nD τ).loc main_arg7) :=
  V_of_not_written m c main_arg7 (by decide) (by decide) (by decide) (by decide) (by decide) (by decide)
theorem V_main_arg8 (c : Dev nD) : V m c main_arg8 = m ((c : Thread nD τ).loc main_arg8) :=
  V_of_not_written m c main_arg8 (by decide) (by decide) (by decide) (by decide) (by decide) (by decide)
theorem V_main_arg9 (c : Dev nD) : V m c main_arg9 = m ((c : Thread nD τ).loc main_arg9) :=
  V_of_not_written m c main_arg9 (by decide) (by decide) (by decide) (by decide) (by decide) (by decide)
theorem V_main_arg10 (c : Dev nD) : V m c main_arg10 = m ((c : Thread nD τ).loc main_arg10) :=
  V_of_not_written m c main_arg10 (by decide) (by decide) (by decide) (by decide) (by decide) (by decide)
theorem V_main_arg11 (c : Dev nD) : V m c main_arg11 = m ((c : Thread nD τ).loc main_arg11) :=
  V_of_not_written m c main_arg11 (by decide) (by decide) (by decide) (by decide) (by decide) (by decide)

/-! ## The blocks -/

/-- Block `t` of the array behind window `w`, as the walk finds the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/- Each of the six arrays read is found, at every step, with its current block in the buffer the body reads: moved
   there at this step, or — the block index not having changed since — still there from an earlier one. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## One block -/

/-- The whole of a 256 × 1024 buffer, of a 1024 × 3072 one, of a 1 × 3072 one: what every access of the body spans. -/
abbrev rAct : Rect S256x1024 := Rect.unit (s := S256x1024) ![0, 0] S256x1024.size inb_S256x1024_S256x1024_0_0
abbrev rWgt : Rect S1024x3072 := Rect.unit (s := S1024x3072) ![0, 0] S1024x3072.size inb_S1024x3072_S1024x3072_0_0
abbrev rBias : Rect S1x3072 := Rect.unit (s := S1x3072) ![0, 0] S1x3072.size inb_S1x3072_S1x3072_0_0

theorem zero2 : (![0, 0] : Fin 2 → Nat) = fun _ => 0 := by
  funext a; fin_cases a <;> rfl

/-- The new hidden state's block, from the six blocks read: what the one store into its buffer leaves. -/
def hBlock (x h cc : Vec F S256x1024 .f32) (wW wU : Vec F S1024x3072 .bf16) (bb : Vec F S1x3072 .f32) : Vec F S256x1024 .f32 :=
  View.canon [⟨rAct, k0_pay3 (View.ld x rAct) (View.ld h rAct) (View.ld cc rAct) (View.ld wW rWgt) (View.ld wU rWgt) (View.ld bb rBias)⟩]

/-- The new cell state's block, likewise. -/
def cBlock (x h cc : Vec F S256x1024 .f32) (wW wU : Vec F S1024x3072 .bf16) (bb : Vec F S1x3072 .f32) : Vec F S256x1024 .f32 :=
  View.canon [⟨rAct, k0_pay2 (View.ld x rAct) (View.ld h rAct) (View.ld cc rAct) (View.ld wW rWgt) (View.ld wU rWgt) (View.ld bb rBias)⟩]

/-- Every access spans its whole buffer, so the two blocks are the body's two results of the blocks read. -/
theorem hBlock_eq (x h cc : Vec F S256x1024 .f32) (wW wU : Vec F S1024x3072 .bf16) (bb : Vec F S1x3072 .f32) :
    hBlock x h cc wW wU bb = k0_pay3 x h cc wW wU bb := by
  unfold hBlock
  rw [View.canon_unit_zero zero2]
  simp only [View.ld_unit_zero (S := S256x1024) zero2, View.ld_unit_zero (S := S1024x3072) zero2, View.ld_unit_zero (S := S1x3072) zero2]

theorem cBlock_eq (x h cc : Vec F S256x1024 .f32) (wW wU : Vec F S1024x3072 .bf16) (bb : Vec F S1x3072 .f32) :
    cBlock x h cc wW wU bb = k0_pay2 x h cc wW wU bb := by
  unfold cBlock
  rw [View.canon_unit_zero zero2]
  simp only [View.ld_unit_zero (S := S256x1024) zero2, View.ld_unit_zero (S := S1024x3072) zero2, View.ld_unit_zero (S := S1x3072) zero2]

/-- The one store covers its buffer. -/
theorem cover_act (p0 : Vec F S256x1024 .f32) (y : S256x1024.Idx) :
    ∃ pc ∈ ([⟨rAct, p0⟩] : List (View.Piece (Elt F) S256x1024 .f32)), y ∈ pc.1.set :=
  ⟨_, List.mem_singleton_self _, View.mem_set_unit_zero zero2 inb_S256x1024_S256x1024_0_0 y⟩

set_option maxHeartbeats 1000000 in
/-- The body on eight whole buffers — six at the contents read, two at anything — ends with the six as they were and
    the two at the new hidden state's and the new cell state's block. -/
theorem sound_kernel (c : Dev nD) (E : Set ℕ) (i : grid0.Coords)
    (a1 : Memref sig .tc .vmem S256x1024 .f32) (h1 : a1.IsWhole) (a2 : Memref sig .tc .vmem S256x1024 .f32) (h2 : a2.IsWhole)
    (a3 : Memref sig .tc .vmem S256x1024 .f32) (h3 : a3.IsWhole) (a4 : Memref sig .tc .vmem S1024x3072 .bf16) (h4 : a4.IsWhole)
    (a5 : Memref sig .tc .vmem S1024x3072 .bf16) (h5 : a5.IsWhole) (a6 : Memref sig .tc .vmem S1x3072 .f32) (h6 : a6.IsWhole)
    (a7 : Memref sig .tc .vmem S256x1024 .f32) (h7 : a7.IsWhole) (a8 : Memref sig .tc .vmem S256x1024 .f32) (h8 : a8.IsWhole)
    (x h cc : Vec F S256x1024 .f32) (wW wU : Vec F S1024x3072 .bf16) (bb : Vec F S1x3072 .f32) (K : PUnit → sProp 𝕄) :
    iprop(owns (c : Thread nD τ) a1 fullShare x ∗ owns (c : Thread nD τ) a2 fullShare h ∗ owns (c : Thread nD τ) a3 fullShare cc
        ∗ owns (c : Thread nD τ) a4 fullShare wW ∗ owns (c : Thread nD τ) a5 fullShare wU ∗ owns (c : Thread nD τ) a6 fullShare bb
        ∗ (∃ d, owns (c : Thread nD τ) a7 fullShare d) ∗ (∃ d, owns (c : Thread nD τ) a8 fullShare d)
        ∗ (iprop(owns (c : Thread nD τ) a1 fullShare x ∗ owns (c : Thread nD τ) a2 fullShare h ∗ owns (c : Thread nD τ) a3 fullShare cc
            ∗ owns (c : Thread nD τ) a4 fullShare wW ∗ owns (c : Thread nD τ) a5 fullShare wU ∗ owns (c : Thread nD τ) a6 fullShare bb
            ∗ owns (c : Thread nD τ) a7 fullShare (hBlock x h cc wW wU bb) ∗ owns (c : Thread nD τ) a8 fullShare (cBlock x h cc wW wU bb)) -∗ K ⟨⟩))
      ⊢ wp frame (wpE (defs₀ (F := F)) Variants.none c none) E (cc0__lstm_kernel i a1 h1 a2 h2 a3 h3 a4 h4 a5 h5 a6 h6 a7 h7 a8 h8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_act _)
  iexists _; isplitr
  swap; · iexact H8
  ipureintro
  exact View.read_writes_eq_canon _ _ _ (cover_act _)

/-! ## The walk's proof data -/

/-- On core `c`: the arrays as the walk finds them; after step `t` each buffer read holds its block still, and the two
    written hold the new hidden state's and the new cell state's block of the six blocks read; the rest of the core
    is untouched, nothing is owed, every share is whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hBlock (iblk m c 0 t) (iblk m c 1 t) (iblk m c 2 t) (iblk m c 3 t) (iblk m c 4 t) (iblk m c 5 t)
    | ⟨7, _⟩ => cBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = hBlock (iblk m c 0 t) (iblk m c 1 t) (iblk m c 2 t) (iblk m c 3 t) (iblk m c 4 t) (iblk m c 5 t) := by dsimp only [dats]
theorem after_7 (c : Dev nD) (t : Fin cfg0.N) : (dats m 0 c).after 7 t
    = cBlock (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d
theorem before_4 (c : Dev nD) (t : Fin cfg0.N) (d) : (dats m 0 c).before 4 t d = iblk m c 4 t :=
  before_in4_of m (dats m 0 c) (A_eq m c 4) (after_4 m c) t d
theorem before_5 (c : Dev nD) (t : Fin cfg0.N) (d) : (dats m 0 c).before 5 t d = iblk m c 5 t :=
  before_in5_of m (dats m 0 c) (A_eq m c 5) (after_5 m c) t d

/-! ## The body at a step -/

/-- What the body is handed at step `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any step: the six buffers read hold their blocks, so the body's triple applies; the rest of the core
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The walk and the frame -/

set_option backward.isDefEq.respectTransparency.types false in
/-- From any memory with every counter at zero, every weakly fair execution of the program ends, without a fault,
    with each array of the walk at what the proof data says of it and every other array as the walk found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From the walk's conclusion, the twelve arguments unchanged: x, h₀, c₀ are arrays the walk only reads, the nine
    weights and biases arrays it does not touch; and the layout operations wrote none of the twelve. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-- The program runs to the end, faults nowhere, and leaves its arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Frame

end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.KernelBlock.lean ====
/-
  The body's two results at an entry of a block.

  The body reads a 256-row block of x, h₀ and c₀, the whole 1024 × 3072 matrices W and U and the 1 × 3072 row b. At row p
  of the block and column f of the 3072 it forms

      pre p f = (∑ₖ x[p,k] · W[k,f] + ∑ₖ h₀[p,k] · U[k,f]) + b[0,f]

  — the change of number format before each product is the identity on exact values, and a product into a zero
  accumulator is the sum over the 1024 contracted coordinates — and then, at column q of the 1024, with the three
  gates' columns q, 1024 + q and 2048 + q:

      c'[p,q] = σ(pre p q) · c₀[p,q] + σ(pre p q) · σ(pre p (1024 + q)),   h'[p,q] = σ(pre p (2048 + q)) · tanh c'[p,q].
-/
import proofs.«110996_j43894565765582_2_alg».proof.Proof.Gen.KernelIdeal.Skeleton
import proofs.«110996_j43894565765582_2_alg».proof.Proof.LibDotRow
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.ValueIdx

/-- The product's dimension numbers: 256 × 1024 by 1024 × 3072, contracted over the 1024. -/
abbrev dims : DotDims S256x1024 S1024x3072 S256x3072 := dot_S256x1024_S1024x3072_S256x3072_1_0_0_1_n_n

/-- The left operand is read in the output's row, -/
theorem lhs_row (j : S256x3072.Idx) (k : dims.contr.Idx) : (dims.lhsIdx j k 0).val = (j 0).val := by
  unfold DotDims.lhsIdx
  rw [dif_neg (show ¬(0 : Fin S256x1024.rank) ∈ dims.lhsBatch by decide), dif_pos (show (0 : Fin S256x1024.rank) ∈ dims.lhsNonContracting by decide)]
  rfl

/-- the right operand in the output's column. -/
theorem rhs_col (j : S256x3072.Idx) (k : dims.contr.Idx) : (dims.rhsIdx j k 1).val = (j 1).val := by
  unfold DotDims.rhsIdx
  rw [dif_neg (show ¬(1 : Fin S1024x3072.rank) ∈ dims.rhsBatch by decide), dif_pos (show (1 : Fin S1024x3072.rank) ∈ dims.rhsNonContracting by decide)]
  rfl

/-- A product into a zero accumulator, at row `p` and column `f`: the sum over the contracted coordinate. -/
theorem matmul_entry (L : FVec Ideal S256x1024 .bf16) (R : FVec Ideal S1024x3072 .bf16) (p : Fin 256) (f : Fin 3072) :
    matmul dims none L R (constant (F := Ideal) S256x3072 .f32 0x00000000#32) (ix2 p f) = ∑ k : Fin 1024, L (ix2 p k) * R (ix2 k f) := by
  simp only [matmul]
  rw [Ideal.matmul_constant_zero_apply]
  exact DotRow.sum_contr dims rfl rfl rfl rfl lhs_row rhs_col L R p f

/-- The one row b spread over 256 rows, at row `p` and column `f`: `b[0, f]`. -/
theorem bias_entry (v : FVec Ideal S1x3072 .f32) (p : Fin 256) (f : Fin 3072) :
    broadcastTo S256x3072 v broadcasts_S1x3072_S256x3072 (ix2 p f) = v (ix2 (0 : Fin 1) f) :=
  broadcastTo_apply v broadcasts_S1x3072_S256x3072 (ix2 p f) (ix2 (0 : Fin 1) f) (fun a => match a with
    | ⟨0, _⟩ => by show (0 : Nat) = if (1 : Nat) = 1 then 0 else p.val; rw [if_pos rfl]
    | ⟨1, _⟩ => by show f.val = if (3072 : Nat) = 1 then 0 else f.val; rw [if_neg (by decide)])

/-- Column `q` of the gate whose columns start at `o`. -/
abbrev gateCol (o : Nat) (ho : o + 1024 ≤ 3072) (q : Fin 1024) : Fin 3072 := ⟨o + q.val, by have := q.isLt; omega⟩

/-- The 1024 columns from `o` on, at row `p` and column `q`: the operand at column `o + q`. -/
theorem slice_entry (o : Nat) (ho : o + 1024 ≤ 3072) (v : FVec Ideal S256x3072 .f32) (h : S256x3072.Slices ![0, o] S256x1024)
    (p : Fin 256) (q : Fin 1024) :
    extractStridedSlice S256x1024 ![0, o] v h (ix2 p q) = v (ix2 p (gateCol o ho q)) :=
  extractStridedSlice_apply ![0, o] v h (ix2 p q) (ix2 p (gateCol o ho q)) (fun a => match a with
    | ⟨0, _⟩ => by show p.val = 0 + p.val; omega
    | ⟨1, _⟩ => by show o + q.val = o + q.val; rfl)

/-- The pre-activation of the three gates side by side, at row `p` of the block and column `f` of the 3072. -/
def pre (x h : Vec Ideal S256x1024 .f32) (wW wU : Vec Ideal S1024x3072 .bf16) (bb : Vec Ideal S1x3072 .f32) (p : Fin 256) (f : Fin 3072) : EReal :=
  (∑ k : Fin 1024, x (ix2 p k) * wW (ix2 k f)) + (∑ k : Fin 1024, h (ix2 p k) * wU (ix2 k f)) + bb (ix2 (0 : Fin 1) f)

theorem pre_entry (x h : Vec Ideal S256x1024 .f32) (wW wU : Vec Ideal S1024x3072 .bf16) (bb : Vec Ideal S1x3072 .f32) (p : Fin 256) (f : Fin 3072) :
    k0_pay1 (F := Ideal) x h wW wU bb (ix2 p f) = pre x h wW wU bb p f := by
  unfold k0_pay1
  simp only [shapeCast_self]
  show (matmul dims none _ _ (constant (F := Ideal) S256x3072 .f32 0x00000000#32) (ix2 p f)
      + matmul dims none _ _ (constant (F := Ideal) S256x3072 .f32 0x00000000#32) (ix2 p f))
      + broadcastTo S256x3072 bb broadcasts_S1x3072_S256x3072 (ix2 p f) = _
  rw [matmul_entry, matmul_entry, bias_entry]
  rfl

/-- The new cell state at row `p`, column `q` of the block. -/
def cellAt (x h cc : Vec Ideal S256x1024 .f32) (wW wU : Vec Ideal S1024x3072 .bf16) (bb : Vec Ideal S1x3072 .f32) (p : Fin 256) (q : Fin 1024) : EReal :=
  Ideal.logistic (pre x h wW wU bb p (gateCol 0 (by omega) q)) * cc (ix2 p q)
    + Ideal.logistic (pre x h wW wU bb p (gateCol 0 (by omega) q)) * Ideal.logistic (pre x h wW wU bb p (gateCol 1024 (by omega) q))

/-- The new hidden state at row `p`, column `q` of the block. -/
def hiddenAt (x h cc : Vec Ideal S256x1024 .f32) (wW wU : Vec Ideal S1024x3072 .bf16) (bb : Vec Ideal S1x3072 .f32) (p : Fin 256) (q : Fin 1024) : EReal :=
  Ideal.logistic (pre x h wW wU bb p (gateCol 2048 (by omega) q)) * Ideal.tanh (cellAt x h cc wW wU bb p q)

theorem cell_entry (x h cc : Vec Ideal S256x1024 .f32) (wW wU : Vec Ideal S1024x3072 .bf16) (bb : Vec Ideal S1x3072 .f32) (p : Fin 256) (q : Fin 1024) :
    k0_pay2 (F := Ideal) x h cc wW wU bb (ix2 p q) = cellAt x h cc wW wU bb p q := by
  unfold k0_pay2
  show Ideal.logistic (extractStridedSlice S256x1024 ![0, 0] (k0_pay1 (F := Ideal) x h wW wU bb) slices_S256x3072_o0_0_S256x1024 (ix2 p q)) * cc (ix2 p q)
      + Ideal.logistic (extractStridedSlice S256x1024 ![0, 0] (k0_pay1 (F := Ideal) x h wW wU bb) slices_S256x3072_o0_0_S256x1024 (ix2 p q))
        * Ideal.logistic (extractStridedSlice S256x1024 ![0, 1024] (k0_pay1 (F := Ideal) x h wW wU bb) slices_S256x3072_o0_1024_S256x1024 (ix2 p q)) = _
  rw [slice_entry 0 (by omega), slice_entry 1024 (by omega), pre_entry, pre_entry]
  rfl

theorem hidden_entry (x h cc : Vec Ideal S256x1024 .f32) (wW wU : Vec Ideal S1024x3072 .bf16) (bb : Vec Ideal S1x3072 .f32) (p : Fin 256) (q : Fin 1024) :
    k0_pay3 (F := Ideal) x h cc wW wU bb (ix2 p q) = hiddenAt x h cc wW wU bb p q := by
  unfold k0_pay3
  show Ideal.logistic (extractStridedSlice S256x1024 ![0, 2048] (k0_pay1 (F := Ideal) x h wW wU bb) slices_S256x3072_o0_2048_S256x1024 (ix2 p q))
      * Ideal.tanh (k0_pay2 (F := Ideal) x h cc wW wU bb (ix2 p q)) = _
  rw [slice_entry 2048 (by omega), pre_entry, cell_entry]
  rfl

end Cert.KernelIdeal.Block

end
-- ==== Proof.KernelEntry.lean ====
/-
  What the block walk finds in W, U and b.

  Before the walk the program lays the three gates' weights side by side: W = [w_f | w_i | w_o] and
  U = [u_f | u_i | u_o] (each 1024 × 3072, then changed to a shorter number format — the identity on exact values) and
  b = [b_f | b_i | b_o] (3072 entries, then viewed as one row of 3072). So column o + q of W, for o = 0, 1024, 2048 and
  q < 1024, is column q of w_f, w_i, w_o; the same for U; and entry (0, o + q) of the row b is entry q of b_f, b_i, b_o.
-/
import proofs.«110996_j43894565765582_2_alg».proof.Proof.KernelIdealFrame
import proofs.«110996_j43894565765582_2_alg».proof.Proof.KernelBlock
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Entry

open Cert.KernelIdeal Cert.KernelIdeal.Gen Cert.KernelIdeal.Frame Cert.KernelIdeal.Block
open Idealize.ShloMosaic Idealize.ShloMosaic.TcCoe Idealize.SL.Sem Idealize.ShloMosaic.StableHlo Idealize.ShloMosaic.ValueIdx

/-! ## Three arrays side by side, read at an entry -/

theorem cols_f {α : Type} (a0 a1 a2 : S1024x1024.Idx → α) (k q : Fin 1024) :
    concatenate S1024x3072 1 [⟨S1024x1024, a0⟩, ⟨S1024x1024, a1⟩, ⟨S1024x1024, a2⟩] concatenates_S1024x1024_S1024x1024_S1024x1024_S1024x3072_d1
        (ix2 k (gateCol 0 (by omega) q)) = a0 (ix2 k q) :=
  concatenate_apply_piece (1 : Fin 2) [⟨S1024x1024, a0⟩, ⟨S1024x1024, a1⟩, ⟨S1024x1024, a2⟩] _ (ix2 k (gateCol 0 (by omega) q))
    0 (by simp) S1024x1024 a0 rfl rfl 0 (by rfl) (ix2 k q)
    (fun b hb => match b, hb with
      | ⟨0, _⟩, _ => rfl
      | ⟨1, _⟩, hb => absurd rfl hb)
    rfl
theorem cols_i {α : Type} (a0 a1 a2 : S1024x1024.Idx → α) (k q : Fin 1024) :
    concatenate S1024x3072 1 [⟨S1024x1024, a0⟩, ⟨S1024x1024, a1⟩, ⟨S1024x1024, a2⟩] concatenates_S1024x1024_S1024x1024_S1024x1024_S1024x3072_d1
        (ix2 k (gateCol 1024 (by omega) q)) = a1 (ix2 k q) :=
  concatenate_apply_piece (1 : Fin 2) [⟨S1024x1024, a0⟩, ⟨S1024x1024, a1⟩, ⟨S1024x1024, a2⟩] _ (ix2 k (gateCol 1024 (by omega) q))
    1 (by simp) S1024x1024 a1 rfl rfl 1024 (by rfl) (ix2 k q)
    (fun b hb => match b, hb with
      | ⟨0, _⟩, _ => rfl
      | ⟨1, _⟩, hb => absurd rfl hb)
    rfl
theorem cols_o {α : Type} (a0 a1 a2 : S1024x1024.Idx → α) (k q : Fin 1024) :
    concatenate S1024x3072 1 [⟨S1024x1024, a0⟩, ⟨S1024x1024, a1⟩, ⟨S1024x1024, a2⟩] concatenates_S1024x1024_S1024x1024_S1024x1024_S1024x3072_d1
        (ix2 k (gateCol 2048 (by omega) q)) = a2 (ix2 k q) :=
  concatenate_apply_piece (1 : Fin 2) [⟨S1024x1024, a0⟩, ⟨S1024x1024, a1⟩, ⟨S1024x1024, a2⟩] _ (ix2 k (gateCol 2048 (by omega) q))
    2 (by simp) S1024x1024 a2 rfl rfl 2048 (by rfl) (ix2 k q)
    (fun b hb => match b, hb with
      | ⟨0, _⟩, _ => rfl
      | ⟨1, _⟩, hb => absurd rfl hb)
    rfl

theorem entries_f {α : Type} (b0 b1 b2 : S1024.Idx → α) (q : Fin 1024) :
    concatenate S3072 0 [⟨S1024, b0⟩, ⟨S1024, b1⟩, ⟨S1024, b2⟩] concatenates_S1024_S1024_S1024_S3072_d0
        (ix1 (gateCol 0 (by omega) q)) = b0 (ix1 q) :=
  concatenate_apply_piece (0 : Fin 1) [⟨S1024, b0⟩, ⟨S1024, b1⟩, ⟨S1024, b2⟩] _ (ix1 (gateCol 0 (by omega) q))
    0 (by simp) S1024 b0 rfl rfl 0 (by rfl) (ix1 q)
    (fun b hb => match b, hb with
      | ⟨0, _⟩, hb => absurd rfl hb)
    rfl
theorem entries_i {α : Type} (b0 b1 b2 : S1024.Idx → α) (q : Fin 1024) :
    concatenate S3072 0 [⟨S1024, b0⟩, ⟨S1024, b1⟩, ⟨S1024, b2⟩] concatenates_S1024_S1024_S1024_S3072_d0
        (ix1 (gateCol 1024 (by omega) q)) = b1 (ix1 q) :=
  concatenate_apply_piece (0 : Fin 1) [⟨S1024, b0⟩, ⟨S1024, b1⟩, ⟨S1024, b2⟩] _ (ix1 (gateCol 1024 (by omega) q))
    1 (by simp) S1024 b1 rfl rfl 1024 (by rfl) (ix1 q)
    (fun b hb => match b, hb with
      | ⟨0, _⟩, hb => absurd rfl hb)
    rfl
theorem entries_o {α : Type} (b0 b1 b2 : S1024.Idx → α) (q : Fin 1024) :
    concatenate S3072 0 [⟨S1024, b0⟩, ⟨S1024, b1⟩, ⟨S1024, b2⟩] concatenates_S1024_S1024_S1024_S3072_d0
        (ix1 (gateCol 2048 (by omega) q)) = b2 (ix1 q) :=
  concatenate_apply_piece (0 : Fin 1) [⟨S1024, b0⟩, ⟨S1024, b1⟩, ⟨S1024, b2⟩] _ (ix1 (gateCol 2048 (by omega) q))
    2 (by simp) S1024 b2 rfl rfl 2048 (by rfl) (ix1 q)
    (fun b hb => match b, hb with
      | ⟨0, _⟩, hb => absurd rfl hb)
    rfl

/-- 3072 entries viewed as one row of 3072: entry (0, f) of the row is entry f. -/
theorem row_entry {α : Type} (v : S3072.Idx → α) (f : Fin 3072) :
    shapeCast S1x3072 v shapeCasts_S3072_S1x3072 (ix2 (0 : Fin 1) f) = v (ix1 f) :=
  shapeCast_apply v shapeCasts_S3072_S1x3072 (ix2 (0 : Fin 1) f) (ix1 f) (by
    rw [Shape.rowMajor_val_one, Shape.rowMajor_val_two]
    show f.val = 0 * 3072 + f.val
    omega)

/-! ## W, U and b when the walk starts -/

variable (m : (ℓ : Loc nD τ sig) → Buf (Elt Ideal) ℓ)

/-- W is the three input-weight matrices side by side. -/
theorem V_W (c : Dev nD) :
    (V m c main_v1 : S1024x3072.Idx → EReal) =
      truncf (F := Ideal) .bf16 (concatenate S1024x3072 1 [⟨S1024x1024, m ((c : Thread nD τ).loc main_arg3)⟩, ⟨S1024x1024, m ((c : Thread nD τ).loc main_arg6)⟩, ⟨S1024x1024, m ((c : Thread nD τ).loc main_arg9)⟩] concatenates_S1024x1024_S1024x1024_S1024x1024_S1024x3072_d1) bitsLt_bf16_f32 := by
  dsimp only [V, hostOps0]
  after_results
  rfl

/-- U is the three recurrent-weight matrices side by side. -/
theorem V_U (c : Dev nD) :
    (V m c main_v3 : S1024x3072.Idx → EReal) =
      truncf (F := Ideal) .bf16 (concatenate S1024x3072 1 [⟨S1024x1024, m ((c : Thread nD τ).loc main_arg4)⟩, ⟨S1024x1024, m ((c : Thread nD τ).loc main_arg7)⟩, ⟨S1024x1024, m ((c : Thread nD τ).loc main_arg10)⟩] concatenates_S1024x1024_S1024x1024_S1024x1024_S1024x3072_d1) bitsLt_bf16_f32 := by
  dsimp only [V, hostOps0]
  after_results
  rfl

/-- b is the three biases end to end, as one row. -/
theorem V_b (c : Dev nD) :
    (V m c main_v5 : S1x3072.Idx → EReal) =
      shapeCast S1x3072 (concatenate S3072 0 [⟨S1024, m ((c : Thread nD τ).loc main_arg5)⟩, ⟨S1024, m ((c : Thread nD τ).loc main_arg8)⟩, ⟨S1024, m ((c : Thread nD τ).loc main_arg11)⟩] concatenates_S1024_S1024_S1024_S3072_d0) shapeCasts_S3072_S1x3072 := by
  dsimp only [V, hostOps0]
  after_results
  rfl

/-- Gate f's columns of W, U and b are gate f's weight matrices and bias. -/
theorem W_f (c : Dev nD) (k q : Fin 1024) :
    (V m c main_v1 : S1024x3072.Idx → EReal) (ix2 k (gateCol 0 (by omega) q)) = (m ((c : Thread nD τ).loc main_arg3) : S1024x1024.Idx → EReal) (ix2 k q) := by
  rw [V_W]; exact cols_f _ _ _ k q
theorem U_f (c : Dev nD) (k q : Fin 1024) :
    (V m c main_v3 : S1024x3072.Idx → EReal) (ix2 k (gateCol 0 (by omega) q)) = (m ((c : Thread nD τ).loc main_arg4) : S1024x1024.Idx → EReal) (ix2 k q) := by
  rw [V_U]; exact cols_f _ _ _ k q
theorem b_f (c : Dev nD) (q : Fin 1024) :
    (V m c main_v5 : S1x3072.Idx → EReal) (ix2 (0 : Fin 1) (gateCol 0 (by omega) q)) = (m ((c : Thread nD τ).loc main_arg5) : S1024.Idx → EReal) (ix1 q) := by
  rw [V_b, row_entry]; exact entries_f _ _ _ q

/-- Gate i's columns of W, U and b are gate i's weight matrices and bias. -/
theorem W_i (c : Dev nD) (k q : Fin 1024) :
    (V m c main_v1 : S1024x3072.Idx → EReal) (ix2 k (gateCol 1024 (by omega) q)) = (m ((c : Thread nD τ).loc main_arg6) : S1024x1024.Idx → EReal) (ix2 k q) := by
  rw [V_W]; exact cols_i _ _ _ k q
theorem U_i (c : Dev nD) (k q : Fin 1024) :
    (V m c main_v3 : S1024x3072.Idx → EReal) (ix2 k (gateCol 1024 (by omega) q)) = (m ((c : Thread nD τ).loc main_arg7) : S1024x1024.Idx → EReal) (ix2 k q) := by
  rw [V_U]; exact cols_i _ _ _ k q
theorem b_i (c : Dev nD) (q : Fin 1024) :
    (V m c main_v5 : S1x3072.Idx → EReal) (ix2 (0 : Fin 1) (gateCol 1024 (by omega) q)) = (m ((c : Thread nD τ).loc main_arg8) : S1024.Idx → EReal) (ix1 q) := by
  rw [V_b, row_entry]; exact entries_i _ _ _ q

/-- Gate o's columns of W, U and b are gate o's weight matrices and bias. -/
theorem W_o (c : Dev nD) (k q : Fin 1024) :
    (V m c main_v1 : S1024x3072.Idx → EReal) (ix2 k (gateCol 2048 (by omega) q)) = (m ((c : Thread nD τ).loc main_arg9) : S1024x1024.Idx → EReal) (ix2 k q) := by
  rw [V_W]; exact cols_o _ _ _ k q
theorem U_o (c : Dev nD) (k q : Fin 1024) :
    (V m c main_v3 : S1024x3072.Idx → EReal) (ix2 k (gateCol 2048 (by omega) q)) = (m ((c : Thread nD τ).loc main_arg10) : S1024x1024.Idx → EReal) (ix2 k q) := by
  rw [V_U]; exact cols_o _ _ _ k q
theorem b_o (c : Dev nD) (q : Fin 1024) :
    (V m c main_v5 : S1x3072.Idx → EReal) (ix2 (0 : Fin 1) (gateCol 2048 (by omega) q)) = (m ((c : Thread nD τ).loc main_arg11) : S1024.Idx → EReal) (ix1 q) := by
  rw [V_b, row_entry]; exact entries_o _ _ _ q

end Cert.KernelIdeal.Entry

end
-- ==== Proof.LstmSpec.lean ====
/-
  One LSTM step, entry by entry, over the extended reals.

  With x, h (4096 × 1024) the step's input and previous hidden state, cc the previous cell state, and per gate a pair
  of 1024 × 1024 weight matrices w, u and a bias b of length 1024, the gate's pre-activation at row r and column q is

      pre r q = (∑ₖ x[r,k] · w[k,q] + ∑ₖ h[r,k] · u[k,q]) + b[q],

  and with σ(z) = 1 / (1 + e^(−z)) (0 at −∞, 1 at +∞):

      cell r q   = σ(pre_f r q) · cc[r,q] + σ(pre_f r q) · σ(pre_i r q)
      hidden r q = σ(pre_o r q) · tanh (cell r q).

  (The cell's second summand uses the forget gate's σ(pre_f) where a textbook LSTM has a candidate value: that is the
  step both programs compute.) Sums and products are the extended reals'; nothing here needs the entries finite.
-/
import Idealize.ShloMosaic.Lib.ValueIdx
import Idealize.ShloMosaic.PureOps.Ideal

noncomputable section

namespace Cert.LstmSpec

open Idealize.ShloMosaic Idealize.ShloMosaic.ValueIdx

/-- Activations: 4096 rows of 1024. One gate's weights: 1024 × 1024. One gate's bias: 1024. -/
abbrev Act : Shape := ⟨2, ![4096, 1024]⟩
abbrev Wgt : Shape := ⟨2, ![1024, 1024]⟩
abbrev Bias : Shape := ⟨1, ![1024]⟩

/-- A gate's pre-activation at row `r`, column `q`. -/
def pre (x h : Act.Idx → EReal) (w u : Wgt.Idx → EReal) (b : Bias.Idx → EReal) (r : Fin 4096) (q : Fin 1024) : EReal :=
  (∑ k : Fin 1024, x (ix2 r k) * w (ix2 k q)) + (∑ k : Fin 1024, h (ix2 r k) * u (ix2 k q)) + b (ix1 q)

/-- The new cell state at row `r`, column `q`. -/
def cellAt (x h cc : Act.Idx → EReal) (wf uf : Wgt.Idx → EReal) (bf : Bias.Idx → EReal)
    (wi ui : Wgt.Idx → EReal) (bi : Bias.Idx → EReal) (r : Fin 4096) (q : Fin 1024) : EReal :=
  Ideal.logistic (pre x h wf uf bf r q) * cc (ix2 r q)
    + Ideal.logistic (pre x h wf uf bf r q) * Ideal.logistic (pre x h wi ui bi r q)

/-- The new hidden state at row `r`, column `q`. -/
def hiddenAt (x h cc : Act.Idx → EReal) (wf uf : Wgt.Idx → EReal) (bf : Bias.Idx → EReal)
    (wi ui : Wgt.Idx → EReal) (bi : Bias.Idx → EReal) (wo uo : Wgt.Idx → EReal) (bo : Bias.Idx → EReal)
    (r : Fin 4096) (q : Fin 1024) : EReal :=
  Ideal.logistic (pre x h wo uo bo r q) * Ideal.tanh (cellAt x h cc wf uf bf wi ui bi r q)

/-- The new cell state, as an array. -/
def cell (x h cc : Act.Idx → EReal) (wf uf : Wgt.Idx → EReal) (bf : Bias.Idx → EReal)
    (wi ui : Wgt.Idx → EReal) (bi : Bias.Idx → EReal) : Act.Idx → EReal :=
  fun j => cellAt x h cc wf uf bf wi ui bi ⟨(j 0).val, idx2_lt0 j⟩ ⟨(j 1).val, idx2_lt1 j⟩

/-- The new hidden state, as an array. -/
def hidden (x h cc : Act.Idx → EReal) (wf uf : Wgt.Idx → EReal) (bf : Bias.Idx → EReal)
    (wi ui : Wgt.Idx → EReal) (bi : Bias.Idx → EReal) (wo uo : Wgt.Idx → EReal) (bo : Bias.Idx → EReal) : Act.Idx → EReal :=
  fun j => hiddenAt x h cc wf uf bf wi ui bi wo uo bo ⟨(j 0).val, idx2_lt0 j⟩ ⟨(j 1).val, idx2_lt1 j⟩

theorem cell_ix2 (x h cc : Act.Idx → EReal) (wf uf : Wgt.Idx → EReal) (bf : Bias.Idx → EReal)
    (wi ui : Wgt.Idx → EReal) (bi : Bias.Idx → EReal) (r : Fin 4096) (q : Fin 1024) :
    cell x h cc wf uf bf wi ui bi (ix2 r q) = cellAt x h cc wf uf bf wi ui bi r q := rfl

theorem hidden_ix2 (x h cc : Act.Idx → EReal) (wf uf : Wgt.Idx → EReal) (bf : Bias.Idx → EReal)
    (wi ui : Wgt.Idx → EReal) (bi : Bias.Idx → EReal) (wo uo : Wgt.Idx → EReal) (bo : Bias.Idx → EReal)
    (r : Fin 4096) (q : Fin 1024) :
    hidden x h cc wf uf bf wi ui bi wo uo bo (ix2 r q) = hiddenAt x h cc wf uf bf wi ui bi wo uo bo r q := rfl

end Cert.LstmSpec

end
-- ==== Proof.KernelValue.lean ====
/-
  What the block walk leaves in the two result arrays.

  Step t of the walk reads rows 256 t … 256 t + 255 of x, h₀, c₀ and all of W, U, b, and writes back the same rows of
  the two results. By the body's entry formulas and the layout of W, U and b, the entry (p, q) it writes is the
  specification's new hidden state, resp. new cell state, at row 256 t + p and column q: the block's row p is the
  array's row 256 t + p, gate g's column q of W is column q of that gate's own matrix, and likewise for U and b. The
  sixteen blocks cover the 4096 rows, so when the walk ends the two result arrays are the specification's, whole.
-/
import proofs.«110996_j43894565765582_2_alg».proof.Proof.KernelIdealFrame
import proofs.«110996_j43894565765582_2_alg».proof.Proof.KernelBlock
import proofs.«110996_j43894565765582_2_alg».proof.Proof.KernelEntry
import proofs.«110996_j43894565765582_2_alg».proof.Proof.LstmSpec
import Idealize.ShloMosaic.Lib.Pipeline.Value
import Idealize.ShloMosaic.Lib.ValueIdx

set_option maxRecDepth 16384

noncomputable section

namespace Cert.KernelIdeal.Walk

open Cert.KernelIdeal Cert.KernelIdeal.Gen Cert.KernelIdeal.Frame Cert.KernelIdeal.Block Cert.KernelIdeal.Entry
open Idealize.ShloMosaic Idealize.ShloMosaic.TcCoe Idealize.SL.Sem Idealize.ShloMosaic.ValueIdx
open Idealize.ShloMosaic.Pipeline (Dat)

/-! ## A block's results are rows of the specification's -/

/-- Row `p` of the block that starts at row `r0`. -/
abbrev rowOf (r0 : Nat) (hr0 : r0 + 256 ≤ 4096) (p : Fin 256) : Fin 4096 := ⟨r0 + p.val, by have := p.isLt; omega⟩

/-- The six blocks the body reads are rows `r0 … r0 + 255` of x, h₀, c₀ and the three gates' weights and biases side by
    side. -/
structure Reads (X H C : LstmSpec.Act.Idx → EReal) (wf uf : LstmSpec.Wgt.Idx → EReal) (bf : LstmSpec.Bias.Idx → EReal) (wi ui : LstmSpec.Wgt.Idx → EReal) (bi : LstmSpec.Bias.Idx → EReal) (wo uo : LstmSpec.Wgt.Idx → EReal) (bo : LstmSpec.Bias.Idx → EReal)
    (x h cc : Vec Ideal S256x1024 .f32) (wW wU : Vec Ideal S1024x3072 .bf16) (bb : Vec Ideal S1x3072 .f32) (r0 : Nat) (hr0 : r0 + 256 ≤ 4096) : Prop where
  x : ∀ (p : Fin 256) (k : Fin 1024), x (ix2 p k) = X (ix2 (rowOf r0 hr0 p) k)
  h : ∀ (p : Fin 256) (k : Fin 1024), h (ix2 p k) = H (ix2 (rowOf r0 hr0 p) k)
  c : ∀ (p : Fin 256) (k : Fin 1024), cc (ix2 p k) = C (ix2 (rowOf r0 hr0 p) k)
  Wf : ∀ k q : Fin 1024, wW (ix2 k (gateCol 0 (by omega) q)) = wf (ix2 k q)
  Wi : ∀ k q : Fin 1024, wW (ix2 k (gateCol 1024 (by omega) q)) = wi (ix2 k q)
  Wo : ∀ k q : Fin 1024, wW (ix2 k (gateCol 2048 (by omega) q)) = wo (ix2 k q)
  Uf : ∀ k q : Fin 1024, wU (ix2 k (gateCol 0 (by omega) q)) = uf (ix2 k q)
  Ui : ∀ k q : Fin 1024, wU (ix2 k (gateCol 1024 (by omega) q)) = ui (ix2 k q)
  Uo : ∀ k q : Fin 1024, wU (ix2 k (gateCol 2048 (by omega) q)) = uo (ix2 k q)
  bf : ∀ q : Fin 1024, bb (ix2 (0 : Fin 1) (gateCol 0 (by omega) q)) = bf (ix1 q)
  bi : ∀ q : Fin 1024, bb (ix2 (0 : Fin 1) (gateCol 1024 (by omega) q)) = bi (ix1 q)
  bo : ∀ q : Fin 1024, bb (ix2 (0 : Fin 1) (gateCol 2048 (by omega) q)) = bo (ix1 q)

section Rows

variable {X H C : LstmSpec.Act.Idx → EReal} {wf uf : LstmSpec.Wgt.Idx → EReal} {bf : LstmSpec.Bias.Idx → EReal} {wi ui : LstmSpec.Wgt.Idx → EReal} {bi : LstmSpec.Bias.Idx → EReal} {wo uo : LstmSpec.Wgt.Idx → EReal} {bo : LstmSpec.Bias.Idx → EReal}
  {x h cc : Vec Ideal S256x1024 .f32} {wW wU : Vec Ideal S1024x3072 .bf16} {bb : Vec Ideal S1x3072 .f32} {r0 : Nat} {hr0 : r0 + 256 ≤ 4096}

/-- One gate's pre-activation: the block's, at the gate's columns, is the specification's at the block's rows. -/
theorem pre_rows (w u : LstmSpec.Wgt.Idx → EReal) (b : LstmSpec.Bias.Idx → EReal) (o : Nat) (ho : o + 1024 ≤ 3072)
    (hx : ∀ (p : Fin 256) (k : Fin 1024), x (ix2 p k) = X (ix2 (rowOf r0 hr0 p) k))
    (hh : ∀ (p : Fin 256) (k : Fin 1024), h (ix2 p k) = H (ix2 (rowOf r0 hr0 p) k))
    (hW : ∀ k q : Fin 1024, wW (ix2 k (gateCol o ho q)) = w (ix2 k q))
    (hU : ∀ k q : Fin 1024, wU (ix2 k (gateCol o ho q)) = u (ix2 k q))
    (hb : ∀ q : Fin 1024, bb (ix2 (0 : Fin 1) (gateCol o ho q)) = b (ix1 q))
    (p : Fin 256) (q : Fin 1024) :
    Block.pre x h wW wU bb p (gateCol o ho q) = LstmSpec.pre X H w u b (rowOf r0 hr0 p) q := by
  unfold Block.pre LstmSpec.pre
  simp only [hx, hh, hW, hU, hb]

theorem cell_rows (R : Reads X H C wf uf bf wi ui bi wo uo bo x h cc wW wU bb r0 hr0) (p : Fin 256) (q : Fin 1024) :
    Block.cellAt x h cc wW wU bb p q = LstmSpec.cellAt X H C wf uf bf wi ui bi (rowOf r0 hr0 p) q := by
  unfold Block.cellAt LstmSpec.cellAt
  rw [pre_rows wf uf bf 0 (by omega) R.x R.h R.Wf R.Uf R.bf, pre_rows wi ui bi 1024 (by omega) R.x R.h R.Wi R.Ui R.bi, R.c]

theorem hidden_rows (R : Reads X H C wf uf bf wi ui bi wo uo bo x h cc wW wU bb r0 hr0) (p : Fin 256) (q : Fin 1024) :
    Block.hiddenAt x h cc wW wU bb p q = LstmSpec.hiddenAt X H C wf uf bf wi ui bi wo uo bo (rowOf r0 hr0 p) q := by
  unfold Block.hiddenAt LstmSpec.hiddenAt
  rw [pre_rows wo uo bo 2048 (by omega) R.x R.h R.Wo R.Uo R.bo, cell_rows R]

end Rows

/-! ## The walk's blocks -/

variable (m : (ℓ : Loc nD τ sig) → Buf (Elt Ideal) ℓ) (ρ : Dev nD → PrngReg)

/-- Where each array's block sits at step `t`: x, h₀, c₀ and the two results at block row `t`; W, U, b at the one
    block they have. Decided over the sixteen steps. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem step_rows (t : Fin cfg0.N) : 256 * t.val + 256 ≤ 4096 := by
  have h : t.val < grid0.N := t.isLt
  rw [N_0] at h
  omega

/-- Block `t` of x is its rows 256 t … 256 t + 255. -/
theorem iblk_0 (c : Dev nD) (t : Fin cfg0.N) (ht : 256 * t.val + 256 ≤ 4096) (p : Fin 256) (k : Fin 1024) :
    iblk m c 0 t (ix2 p k) = (m ((c : Thread nD τ).loc main_arg0) : S4096x1024.Idx → EReal) (ix2 (rowOf (256 * t.val) ht p) k) := by
  show V m c main_arg0 (((cfg0.win 0).blk t).view.emb (ix2 p k)) = _
  rw [V_main_arg0]
  refine congrArg _ (funext fun a => Fin.ext ?_)
  have e := idx_facts t
  match a with
  | ⟨0, _⟩ => show win0_0.index t (0 : Fin 2) * 256 + 1 * p.val = 256 * t.val + p.val; omega
  | ⟨1, _⟩ => show win0_0.index t (1 : Fin 2) * 1024 + 1 * k.val = k.val; omega

/-- Block `t` of h₀ is its rows 256 t … 256 t + 255. -/
theorem iblk_1 (c : Dev nD) (t : Fin cfg0.N) (ht : 256 * t.val + 256 ≤ 4096) (p : Fin 256) (k : Fin 1024) :
    iblk m c 1 t (ix2 p k) = (m ((c : Thread nD τ).loc main_arg1) : S4096x1024.Idx → EReal) (ix2 (rowOf (256 * t.val) ht p) k) := by
  show V m c main_arg1 (((cfg0.win 1).blk t).view.emb (ix2 p k)) = _
  rw [V_main_arg1]
  refine congrArg _ (funext fun a => Fin.ext ?_)
  have e := idx_facts t
  match a with
  | ⟨0, _⟩ => show win0_1.index t (0 : Fin 2) * 256 + 1 * p.val = 256 * t.val + p.val; omega
  | ⟨1, _⟩ => show win0_1.index t (1 : Fin 2) * 1024 + 1 * k.val = k.val; omega

/-- Block `t` of c₀ is its rows 256 t … 256 t + 255. -/
theorem iblk_2 (c : Dev nD) (t : Fin cfg0.N) (ht : 256 * t.val + 256 ≤ 4096) (p : Fin 256) (k : Fin 1024) :
    iblk m c 2 t (ix2 p k) = (m ((c : Thread nD τ).loc main_arg2) : S4096x1024.Idx → EReal) (ix2 (rowOf (256 * t.val) ht p) k) := by
  show V m c main_arg2 (((cfg0.win 2).blk t).view.emb (ix2 p k)) = _
  rw [V_main_arg2]
  refine congrArg _ (funext fun a => Fin.ext ?_)
  have e := idx_facts t
  match a with
  | ⟨0, _⟩ => show win0_2.index t (0 : Fin 2) * 256 + 1 * p.val = 256 * t.val + p.val; omega
  | ⟨1, _⟩ => show win0_2.index t (1 : Fin 2) * 1024 + 1 * k.val = k.val; omega

/-- The one block of W is all of it. -/
theorem iblk_3 (c : Dev nD) (t : Fin cfg0.N) (k : Fin 1024) (f : Fin 3072) :
    iblk m c 3 t (ix2 k f) = (V m c main_v1 : S1024x3072.Idx → EReal) (ix2 k f) := by
  show V m c main_v1 (((cfg0.win 3).blk t).view.emb (ix2 k f)) = _
  refine congrArg _ (funext fun a => Fin.ext ?_)
  have e := idx_facts t
  match a with
  | ⟨0, _⟩ => show win0_3.index t (0 : Fin 2) * 1024 + 1 * k.val = k.val; omega
  | ⟨1, _⟩ => show win0_3.index t (1 : Fin 2) * 3072 + 1 * f.val = f.val; omega

/-- The one block of U is all of it. -/
theorem iblk_4 (c : Dev nD) (t : Fin cfg0.N) (k : Fin 1024) (f : Fin 3072) :
    iblk m c 4 t (ix2 k f) = (V m c main_v3 : S1024x3072.Idx → EReal) (ix2 k f) := by
  show V m c main_v3 (((cfg0.win 4).blk t).view.emb (ix2 k f)) = _
  refine congrArg _ (funext fun a => Fin.ext ?_)
  have e := idx_facts t
  match a with
  | ⟨0, _⟩ => show win0_4.index t (0 : Fin 2) * 1024 + 1 * k.val = k.val; omega
  | ⟨1, _⟩ => show win0_4.index t (1 : Fin 2) * 3072 + 1 * f.val = f.val; omega

/-- The one block of b is all of it. -/
theorem iblk_5 (c : Dev nD) (t : Fin cfg0.N) (f : Fin 3072) :
    iblk m c 5 t (ix2 (0 : Fin 1) f) = (V m c main_v5 : S1x3072.Idx → EReal) (ix2 (0 : Fin 1) f) := by
  show V m c main_v5 (((cfg0.win 5).blk t).view.emb (ix2 (0 : Fin 1) f)) = _
  refine congrArg _ (funext fun a => Fin.ext ?_)
  have e := idx_facts t
  match a with
  | ⟨0, _⟩ => show win0_5.index t (0 : Fin 2) * 1 + 1 * 0 = 0; omega
  | ⟨1, _⟩ => show win0_5.index t (1 : Fin 2) * 3072 + 1 * f.val = f.val; omega

/-- At step `t` the six blocks read are rows 256 t … of the arguments x, h₀, c₀ and the nine weight and bias arguments
    laid side by side. -/
theorem reads (c : Dev nD) (t : Fin cfg0.N) :
    Reads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      (iblk m c 0 t) (iblk m c 1 t) (iblk m c 2 t) (iblk m c 3 t) (iblk m c 4 t) (iblk m c 5 t) (256 * t.val) (step_rows t) where
  x := iblk_0 m c t (step_rows t)
  h := iblk_1 m c t (step_rows t)
  c := iblk_2 m c t (step_rows t)
  Wf k q := (iblk_3 m c t k _).trans (W_f m c k q)
  Wi k q := (iblk_3 m c t k _).trans (W_i m c k q)
  Wo k q := (iblk_3 m c t k _).trans (W_o m c k q)
  Uf k q := (iblk_4 m c t k _).trans (U_f m c k q)
  Ui k q := (iblk_4 m c t k _).trans (U_i m c k q)
  Uo k q := (iblk_4 m c t k _).trans (U_o m c k q)
  bf q := (iblk_5 m c t _).trans (b_f m c q)
  bi q := (iblk_5 m c t _).trans (b_i m c q)
  bo q := (iblk_5 m c t _).trans (b_o m c q)

/-! ## The two results -/

/-- The specification's new hidden state and new cell state of the twelve arguments as launched. -/
def hiddenOf (c : Dev nD) : S4096x1024.Idx → EReal := LstmSpec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
def cellOf (c : Dev nD) : S4096x1024.Idx → EReal := LstmSpec.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Entry (p, q) of the block step `t` writes back lands at row 256 t + p, column q. -/
theorem emb_6 (t : Fin cfg0.N) (ht : 256 * t.val + 256 ≤ 4096) (p : Fin 256) (q : Fin 1024) :
    ((cfg0.win 6).blk t).view.emb (ix2 p q) = (ix2 (rowOf (256 * t.val) ht p) q : S4096x1024.Idx) := by
  funext a; apply Fin.ext
  have e := idx_facts t
  match a with
  | ⟨0, _⟩ => show win0_6.index t (0 : Fin 2) * 256 + 1 * p.val = 256 * t.val + p.val; omega
  | ⟨1, _⟩ => show win0_6.index t (1 : Fin 2) * 1024 + 1 * q.val = q.val; omega

theorem mem_blk_6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6_0).slice (win0_6.rect t)).set ↔ _
  rw [View.set_slice_whole, Rect.mem_set_unit]
  exact Iff.rfl

/-- Every row is in some step's block: row r in step r / 256's. -/
theorem cover_6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : (i 0).val / 256 < grid0.N := by rw [N_0]; omega
  refine ⟨⟨(i 0).val / 256, hN⟩, flush0_6 _, ?_⟩
  rw [mem_blk_6]
  have e := idx_facts ⟨(i 0).val / 256, hN⟩
  have htv : (⟨(i 0).val / 256, hN⟩ : Fin cfg0.N).val = (i 0).val / 256 := rfl
  intro a
  match a with
  | ⟨0, _⟩ =>
    show win0_6.index ⟨(i 0).val / 256, hN⟩ (0 : Fin 2) * 256 ≤ (i 0).val ∧ (i 0).val < win0_6.index ⟨(i 0).val / 256, hN⟩ (0 : Fin 2) * 256 + 256
    omega
  | ⟨1, _⟩ =>
    show win0_6.index ⟨(i 0).val / 256, hN⟩ (1 : Fin 2) * 1024 ≤ (i 1).val ∧ (i 1).val < win0_6.index ⟨(i 0).val / 256, hN⟩ (1 : Fin 2) * 1024 + 1024
    omega

/-- Entry (p, q) of the block step `t` writes back lands at row 256 t + p, column q. -/
theorem emb_7 (t : Fin cfg0.N) (ht : 256 * t.val + 256 ≤ 4096) (p : Fin 256) (q : Fin 1024) :
    ((cfg0.win 7).blk t).view.emb (ix2 p q) = (ix2 (rowOf (256 * t.val) ht p) q : S4096x1024.Idx) := by
  funext a; apply Fin.ext
  have e := idx_facts t
  match a with
  | ⟨0, _⟩ => show win0_7.index t (0 : Fin 2) * 256 + 1 * p.val = 256 * t.val + p.val; omega
  | ⟨1, _⟩ => show win0_7.index t (1 : Fin 2) * 1024 + 1 * q.val = q.val; omega

theorem mem_blk_7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6_1).slice (win0_7.rect t)).set ↔ _
  rw [View.set_slice_whole, Rect.mem_set_unit]
  exact Iff.rfl

/-- Every row is in some step's block: row r in step r / 256's. -/
theorem cover_7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have hN : (i 0).val / 256 < grid0.N := by rw [N_0]; omega
  refine ⟨⟨(i 0).val / 256, hN⟩, flush0_7 _, ?_⟩
  rw [mem_blk_7]
  have e := idx_facts ⟨(i 0).val / 256, hN⟩
  have htv : (⟨(i 0).val / 256, hN⟩ : Fin cfg0.N).val = (i 0).val / 256 := rfl
  intro a
  match a with
  | ⟨0, _⟩ =>
    show win0_7.index ⟨(i 0).val / 256, hN⟩ (0 : Fin 2) * 256 ≤ (i 0).val ∧ (i 0).val < win0_7.index ⟨(i 0).val / 256, hN⟩ (0 : Fin 2) * 256 + 256
    omega
  | ⟨1, _⟩ =>
    show win0_7.index ⟨(i 0).val / 256, hN⟩ (1 : Fin 2) * 1024 ≤ (i 1).val ∧ (i 1).val < win0_7.index ⟨(i 0).val / 256, hN⟩ (1 : Fin 2) * 1024 + 1024
    omega

/-- What step `t` writes back to the first result is block `t` of the new hidden state. -/
theorem flushed_hidden (c : Dev nD) (t : Fin cfg0.N) :
    (dats m 0 c).flushed 6 t = ((cfg0.win 6).blk t).view.read (Elt Ideal) (hiddenOf m c) := by
  show (cfg0.win 6).cut (grid0.coords t) ((dats m 0 c).after 6 t) = _
  rw [after_6, hBlock_eq]
  funext j
  obtain ⟨p, q, rfl⟩ : ∃ (p : Fin 256) (q : Fin 1024), j = ix2 p q := ⟨j 0, j 1, eq_ix2 (n0 := 256) (n1 := 1024) j⟩
  show k0_pay3 (F := Ideal) (iblk m c 0 t) (iblk m c 1 t) (iblk m c 2 t) (iblk m c 3 t) (iblk m c 4 t) (iblk m c 5 t) (ix2 p q)
    = hiddenOf m c (((cfg0.win 6).blk t).view.emb (ix2 p q))
  rw [emb_6 t (step_rows t) p q]
  exact (hidden_entry _ _ _ _ _ _ p q).trans (hidden_rows (reads m c t) p q)

/-- What step `t` writes back to the second result is block `t` of the new cell state. -/
theorem flushed_cell (c : Dev nD) (t : Fin cfg0.N) :
    (dats m 0 c).flushed 7 t = ((cfg0.win 7).blk t).view.read (Elt Ideal) (cellOf m c) := by
  show (cfg0.win 7).cut (grid0.coords t) ((dats m 0 c).after 7 t) = _
  rw [after_7, cBlock_eq]
  funext j
  obtain ⟨p, q, rfl⟩ : ∃ (p : Fin 256) (q : Fin 1024), j = ix2 p q := ⟨j 0, j 1, eq_ix2 (n0 := 256) (n1 := 1024) j⟩
  show k0_pay2 (F := Ideal) (iblk m c 0 t) (iblk m c 1 t) (iblk m c 2 t) (iblk m c 3 t) (iblk m c 4 t) (iblk m c 5 t) (ix2 p q)
    = cellOf m c (((cfg0.win 7).blk t).view.emb (ix2 p q))
  rw [emb_7 t (step_rows t) p q]
  exact (cell_entry _ _ _ _ _ _ p q).trans (cell_rows (reads m c t) p q)

/-- When the walk ends the first result array is the new hidden state, -/
theorem final_hidden (c : Dev nD) : (dats m 0 c).arrAt 6 cfg0.N = hiddenOf m c :=
  (dats m 0 c).arrAt_eq_of_cover 6 (hiddenOf m c) (fun t _ => flushed_hidden m c t) cover_6

/-- and the second the new cell state. -/
theorem final_cell (c : Dev nD) : (dats m 0 c).arrAt 7 cfg0.N = cellOf m c :=
  (dats m 0 c).arrAt_eq_of_cover 7 (cellOf m c) (fun t _ => flushed_cell m c t) cover_7

/-! ## The run, read -/

/-- Every weakly fair execution of the program ends, without a fault, with its two results at the specification's new
    hidden state and new cell state of the arguments, and the arguments unchanged. -/
theorem run : θ_run defs (onTc (τ := τ) (main (F := Ideal))) ⟨m, fun _ => 0, ρ⟩ fun r => ∀ c : Dev nD,
      r.2.mem ((c : Thread nD τ).loc main_v6_0) = hiddenOf m c
      ∧ r.2.mem ((c : Thread nD τ).loc main_v6_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1 6).trans (final_hidden m c), ((h c).1 7).trans (final_cell m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

end Cert.KernelIdeal.Walk

end
-- ==== Proof.RefIsSpec.lean ====
/-
  The reference program's two results are the specification's new hidden state and new cell state.

  The reference computes each gate's pre-activation as (x · w + h · u) + b with b spread over the rows, applies the
  logistic function spelt out as 1 / (1 + exp (−z)) — four times: the forget gate's twice, once per use —, and
  combines. Read one operation at a time at an entry (r, q): each product is the sum over the 1024 contracted
  coordinates, the spread bias is b[q], the constant one is the extended real one, and 1 / (1 + exp (−z)) is the logistic
  function by its definition on the extended reals.
-/
import proofs.«110996_j43894565765582_2_alg».proof.Proof.Gen.ReferenceIdeal.Read
import proofs.«110996_j43894565765582_2_alg».proof.Proof.LstmSpec
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.ValueIdx

/-! ## Where each operation reads its operands, at entry (p, q) -/

theorem l_v0 (p : Fin 4096) (q k : Fin 1024) : lidx_main_v0 (ix2 p q) k = ix2 p k :=
  funext fun a => Fin.ext (by match a with | ⟨0, _⟩ => rfl | ⟨1, _⟩ => rfl)
theorem r_v0 (p : Fin 4096) (q k : Fin 1024) : ridx_main_v0 (ix2 p q) k = ix2 k q :=
  funext fun a => Fin.ext (by match a with | ⟨0, _⟩ => rfl | ⟨1, _⟩ => rfl)
theorem l_v1 (p : Fin 4096) (q k : Fin 1024) : lidx_main_v1 (ix2 p q) k = ix2 p k :=
  funext fun a => Fin.ext (by match a with | ⟨0, _⟩ => rfl | ⟨1, _⟩ => rfl)
theorem r_v1 (p : Fin 4096) (q k : Fin 1024) : ridx_main_v1 (ix2 p q) k = ix2 k q :=
  funext fun a => Fin.ext (by match a with | ⟨0, _⟩ => rfl | ⟨1, _⟩ => rfl)
theorem l_v12 (p : Fin 4096) (q k : Fin 1024) : lidx_main_v12 (ix2 p q) k = ix2 p k :=
  funext fun a => Fin.ext (by match a with | ⟨0, _⟩ => rfl | ⟨1, _⟩ => rfl)
theorem r_v12 (p : Fin 4096) (q k : Fin 1024) : ridx_main_v12 (ix2 p q) k = ix2 k q :=
  funext fun a => Fin.ext (by match a with | ⟨0, _⟩ => rfl | ⟨1, _⟩ => rfl)
theorem l_v13 (p : Fin 4096) (q k : Fin 1024) : lidx_main_v13 (ix2 p q) k = ix2 p k :=
  funext fun a => Fin.ext (by match a with | ⟨0, _⟩ => rfl | ⟨1, _⟩ => rfl)
theorem r_v13 (p : Fin 4096) (q k : Fin 1024) : ridx_main_v13 (ix2 p q) k = ix2 k q :=
  funext fun a => Fin.ext (by match a with | ⟨0, _⟩ => rfl | ⟨1, _⟩ => rfl)
theorem l_v24 (p : Fin 4096) (q k : Fin 1024) : lidx_main_v24 (ix2 p q) k = ix2 p k :=
  funext fun a => Fin.ext (by match a with | ⟨0, _⟩ => rfl | ⟨1, _⟩ => rfl)
theorem r_v24 (p : Fin 4096) (q k : Fin 1024) : ridx_main_v24 (ix2 p q) k = ix2 k q :=
  funext fun a => Fin.ext (by match a with | ⟨0, _⟩ => rfl | ⟨1, _⟩ => rfl)
theorem l_v25 (p : Fin 4096) (q k : Fin 1024) : lidx_main_v25 (ix2 p q) k = ix2 p k :=
  funext fun a => Fin.ext (by match a with | ⟨0, _⟩ => rfl | ⟨1, _⟩ => rfl)
theorem r_v25 (p : Fin 4096) (q k : Fin 1024) : ridx_main_v25 (ix2 p q) k = ix2 k q :=
  funext fun a => Fin.ext (by match a with | ⟨0, _⟩ => rfl | ⟨1, _⟩ => rfl)
theorem b_v4 (p : Fin 4096) (q : Fin 1024) : idx_main_v3 (idx_main_v4 (ix2 p q)) = ix1 q :=
  funext fun a => Fin.ext (by match a with | ⟨0, _⟩ => rfl)
theorem b_v16 (p : Fin 4096) (q : Fin 1024) : idx_main_v15 (idx_main_v16 (ix2 p q)) = ix1 q :=
  funext fun a => Fin.ext (by match a with | ⟨0, _⟩ => rfl)
theorem b_v28 (p : Fin 4096) (q : Fin 1024) : idx_main_v27 (idx_main_v28 (ix2 p q)) = ix1 q :=
  funext fun a => Fin.ext (by match a with | ⟨0, _⟩ => rfl)

/-! ## The three pre-activations -/

/-- The f gate's pre-activation stage is the specification's. -/
theorem pre_f (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (p : Fin 4096) (q : Fin 1024) :
    val_main_v5 (F := Ideal) x0 x1 x3 x4 x5 (ix2 p q) = LstmSpec.pre x0 x1 x3 x4 x5 p q := by
  rw [val_main_v5_apply, val_main_v2_apply, val_main_v0_apply, val_main_v1_apply, val_main_v4_apply, val_main_v3_apply]
  simp only [l_v0, r_v0, l_v1, r_v1, b_v4, Ideal.addf_def]
  rfl

/-- The i gate's pre-activation stage is the specification's. -/
theorem pre_i (x0 x1 : (⟨S4096x1024, .f32⟩ : BufTy).Contents (Elt Ideal)) (x6 x7 : (⟨S1024x1024, .f32⟩ : BufTy).Contents (Elt Ideal)) (x8 : (⟨S1024, .f32⟩ : BufTy).Contents (Elt Ideal)) (p : Fin 4096) (q : Fin 1024) :
    val_main_v17 (F := Ideal) x0 x1 x6 x7 x8 (ix2 p q) = LstmSpec.pre x0 x1 x6 x7 x8 p q := by
  rw [val_main_v17_apply, val_main_v14_apply, val_main_v12_apply, val_main_v13_apply, val_main_v16_apply, val_main_v15_apply]
  simp only [l_v12, r_v12, l_v13, r_v13, b_v16, Ideal.addf_def]
  rfl

/-- The o gate's pre-activation stage is the specification's. -/
theorem pre_o (x0 x1 : (⟨S4096x1024, .f32⟩ : BufTy).Contents (Elt Ideal)) (x9 x10 : (⟨S1024x1024, .f32⟩ : BufTy).Contents (Elt Ideal)) (x11 : (⟨S1024, .f32⟩ : BufTy).Contents (Elt Ideal)) (p : Fin 4096) (q : Fin 1024) :
    val_main_v29 (F := Ideal) x0 x1 x9 x10 x11 (ix2 p q) = LstmSpec.pre x0 x1 x9 x10 x11 p q := by
  rw [val_main_v29_apply, val_main_v26_apply, val_main_v24_apply, val_main_v25_apply, val_main_v28_apply, val_main_v27_apply]
  simp only [l_v24, r_v24, l_v25, r_v25, b_v28, Ideal.addf_def]
  rfl

/-! ## The four logistic functions -/

/-- One over one plus the exponential of the negated pre-activation is the logistic function of it. -/
theorem sig_f (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (p : Fin 4096) (q : Fin 1024) :
    val_main_v11 (F := Ideal) x0 x1 x3 x4 x5 (ix2 p q) = Ideal.logistic (LstmSpec.pre x0 x1 x3 x4 x5 p q) := by
  rw [val_main_v11_apply, val_main_v10_apply, val_main_cst_0_apply, val_main_v9_apply, val_main_v8_apply, val_main_cst_apply,
    val_main_v7_apply, val_main_v6_apply, pre_f, Ideal.ofBits_def, Ideal.ofBits_one_f32]
  rfl

/-- One over one plus the exponential of the negated pre-activation is the logistic function of it. -/
theorem sig_i (x0 x1 : (⟨S4096x1024, .f32⟩ : BufTy).Contents (Elt Ideal)) (x6 x7 : (⟨S1024x1024, .f32⟩ : BufTy).Contents (Elt Ideal)) (x8 : (⟨S1024, .f32⟩ : BufTy).Contents (Elt Ideal)) (p : Fin 4096) (q : Fin 1024) :
    val_main_v23 (F := Ideal) x0 x1 x6 x7 x8 (ix2 p q) = Ideal.logistic (LstmSpec.pre x0 x1 x6 x7 x8 p q) := by
  rw [val_main_v23_apply, val_main_v22_apply, val_main_cst_2_apply, val_main_v21_apply, val_main_v20_apply, val_main_cst_1_apply,
    val_main_v19_apply, val_main_v18_apply, pre_i, Ideal.ofBits_def, Ideal.ofBits_one_f32]
  rfl

/-- One over one plus the exponential of the negated pre-activation is the logistic function of it. -/
theorem sig_o (x0 x1 : (⟨S4096x1024, .f32⟩ : BufTy).Contents (Elt Ideal)) (x9 x10 : (⟨S1024x1024, .f32⟩ : BufTy).Contents (Elt Ideal)) (x11 : (⟨S1024, .f32⟩ : BufTy).Contents (Elt Ideal)) (p : Fin 4096) (q : Fin 1024) :
    val_main_v35 (F := Ideal) x0 x1 x9 x10 x11 (ix2 p q) = Ideal.logistic (LstmSpec.pre x0 x1 x9 x10 x11 p q) := by
  rw [val_main_v35_apply, val_main_v34_apply, val_main_cst_4_apply, val_main_v33_apply, val_main_v32_apply, val_main_cst_3_apply,
    val_main_v31_apply, val_main_v30_apply, pre_o, Ideal.ofBits_def, Ideal.ofBits_one_f32]
  rfl

/-- One over one plus the exponential of the negated pre-activation is the logistic function of it. -/
theorem sig_f2 (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (p : Fin 4096) (q : Fin 1024) :
    val_main_v41 (F := Ideal) x0 x1 x3 x4 x5 (ix2 p q) = Ideal.logistic (LstmSpec.pre x0 x1 x3 x4 x5 p q) := by
  rw [val_main_v41_apply, val_main_v40_apply, val_main_cst_6_apply, val_main_v39_apply, val_main_v38_apply, val_main_cst_5_apply,
    val_main_v37_apply, val_main_v36_apply, pre_f, Ideal.ofBits_def, Ideal.ofBits_one_f32]
  rfl

/-! ## The two results -/

/-- The reference's second result is the specification's new cell state. -/
theorem cell_eq (x0 x1 x2 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) :
    val_main_v44 (F := Ideal) x0 x1 x2 x3 x4 x5 x6 x7 x8 = LstmSpec.cell x0 x1 x2 x3 x4 x5 x6 x7 x8 := by
  funext j
  obtain ⟨p, q, rfl⟩ : ∃ (p : Fin 4096) (q : Fin 1024), j = ix2 p q := ⟨j 0, j 1, eq_ix2 j⟩
  rw [LstmSpec.cell_ix2, val_main_v44_apply, val_main_v42_apply, val_main_v43_apply, sig_f, sig_f2, sig_i]
  rfl

/-- The reference's first result is the specification's new hidden state. -/
theorem hidden_eq (x0 x1 x2 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) :
    val_main_v46 (F := Ideal) x0 x1 x2 x3 x4 x5 x6 x7 x8 x9 x10 x11 = LstmSpec.hidden x0 x1 x2 x3 x4 x5 x6 x7 x8 x9 x10 x11 := by
  funext j
  obtain ⟨p, q, rfl⟩ : ∃ (p : Fin 4096) (q : Fin 1024), j = ix2 p q := ⟨j 0, j 1, eq_ix2 j⟩
  rw [LstmSpec.hidden_ix2, val_main_v46_apply, val_main_v45_apply, val_main_v35_apply]
  rw [← val_main_v35_apply, sig_o, cell_eq, LstmSpec.cell_ix2]
  rfl

end Cert.ReferenceIdeal.RefValue

end
-- ==== Proof.lean ====
/-
  One LSTM step, as a kernel walking the batch in blocks and as a plain array program: equal results on the
  extended reals.

  Both programs compute, from the input x, the previous states h₀ and c₀, and three gates' weights and biases,

      c' = σ(pre_f) ∘ c₀ + σ(pre_f) ∘ σ(pre_i),    h' = σ(pre_o) ∘ tanh c',    pre_g = x · w_g + h₀ · u_g + b_g.

  The kernel lays the three gates' weights side by side, forms the three pre-activations with two wide products and
  cuts them apart by columns; the reference forms each gate's with its own two products. Entry by entry the two are the
  same sums of the same products in the same grouping, the logistic function is one function on both sides (the
  reference spells it 1 / (1 + exp (−z))), and a change of number format is the identity on exact values — so the
  results agree for ALL extended-real inputs, and the inputs' finiteness is never used.

  * LstmSpec — the step, entry by entry.
  * RefIsSpec — the reference's two results are the specification's.
  * KernelIdealFrame, KernelFrame — the kernel program runs, faults nowhere and leaves its arguments unchanged (once
    for each reading of the float operations); and what each array of the block walk holds at the end.
  * KernelBlock, KernelEntry, KernelValue — one block's two results at an entry; what the walk finds in the
    side-by-side weights; the sixteen blocks assembled into the two result arrays.
-/
import proofs.«110996_j43894565765582_2_alg».proof.Defs
import proofs.«110996_j43894565765582_2_alg».proof.Proof.Gen.Kernel
import proofs.«110996_j43894565765582_2_alg».proof.Proof.Gen.KernelIdeal
import proofs.«110996_j43894565765582_2_alg».proof.Proof.Gen.ReferenceIdeal
import proofs.«110996_j43894565765582_2_alg».proof.Proof.Gen.Pre_finite_inputs
import proofs.«110996_j43894565765582_2_alg».proof.Proof.Gen.ReferenceIdeal.Run
import proofs.«110996_j43894565765582_2_alg».proof.Proof.Gen.ReferenceIdeal.Read
import proofs.«110996_j43894565765582_2_alg».proof.Proof.KernelFrame
import proofs.«110996_j43894565765582_2_alg».proof.Proof.KernelIdealFrame
import proofs.«110996_j43894565765582_2_alg».proof.Proof.KernelValue
import proofs.«110996_j43894565765582_2_alg».proof.Proof.RefIsSpec
import Idealize.ShloMosaic.Adequacy
import Idealize.ShloMosaic.Init

noncomputable section

namespace Cert.Proof

open Idealize.ShloMosaic Idealize.SL.Sem

/-- The kernel program, floats read as bit patterns: it runs, faults nowhere, and keeps its arguments. -/
theorem frame_kernel : Cert.frame_Kernel := fun m ρ _ => Cert.Kernel.Frame.frame m ρ

/-- The same program, floats read as extended reals. -/
theorem frame_ideal : Cert.frame_KernelIdeal := fun m ρ _ => Cert.KernelIdeal.Frame.frame m ρ

/-- The reference program: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten between the two readings of the kernel program. -/
theorem preserves : Cert.preserves_Kernel_KernelIdeal := trivial

/-- From memories that agree on the twelve arguments, both programs end with the new hidden state and the new cell
    state of the specification, read at those arguments. -/
theorem algebraic : Cert.algebraic_KernelIdeal_ReferenceIdeal := by
  intro m ρ m' ρ' _ hagree
  refine ⟨fun c => Cert.KernelIdeal.Walk.hiddenOf m c, fun c => Cert.KernelIdeal.Walk.cellOf m c,
    Cert.KernelIdeal.Walk.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    refine (Cert.ReferenceIdeal.Read.val_main_v46_eq (F := Ideal) _ _ _ _ _ _ _ _ _ _ _ _).trans
      ((Cert.ReferenceIdeal.RefValue.hidden_eq _ _ _ _ _ _ _ _ _ _ _ _).trans ?_)
    rw [a0, a1, a2, a3, a4, a5, a6, a7, a8, a9, a10, a11]
    rfl
  · obtain ⟨a0, a1, a2, a3, a4, a5, a6, a7, a8, a9, a10, a11⟩ := hagree c
    refine (Cert.ReferenceIdeal.Read.val_main_v44_eq (F := Ideal) _ _ _ _ _ _ _ _ _).trans
      ((Cert.ReferenceIdeal.RefValue.cell_eq _ _ _ _ _ _ _ _ _).trans ?_)
    rw [a0, a1, a2, a3, a4, a5, a6, a7, a8]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
